-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S16x512 : Shape := ⟨2, ![16, 512]⟩
abbrev S1024x16 : Shape := ⟨2, ![1024, 16]⟩
abbrev S2048x1024 : Shape := ⟨2, ![2048, 1024]⟩
abbrev S2048x16 : Shape := ⟨2, ![2048, 16]⟩

abbrev nBuf : Space → Nat
  | .hbm => 13
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S16384x4096, .bf16⟩
  | .hbm, ⟨7, _⟩ => ⟨S4096x4096, .bf16⟩
  | .hbm, ⟨8, _⟩ => ⟨S16x4096, .bf16⟩
  | .hbm, ⟨9, _⟩ => ⟨S4096x16, .bf16⟩
  | .hbm, ⟨10, _⟩ => ⟨S1x4096, .f32⟩
  | .hbm, ⟨11, _⟩ => ⟨S16384x4096, .f32⟩
  | .hbm, ⟨12, _⟩ => ⟨S4x4096x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S16x512, .bf16⟩
  | .local _ .vmem, ⟨7, _⟩ => ⟨S16x512, .bf16⟩
  | .local _ .vmem, ⟨8, _⟩ => ⟨S1024x16, .bf16⟩
  | .local _ .vmem, ⟨9, _⟩ => ⟨S1024x16, .bf16⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S2048x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S4x4096x4096 : S16384x4096.ShapeCasts S4x4096x4096
  dot_S2048x512_S1024x512_S2048x1024_1_1_0_0_n_n_wf : DotDims.WF S2048x512 S1024x512 S2048x1024 [1] [1] [0] [0] [] []
  dot_S2048x512_S16x512_S2048x16_1_1_0_0_n_n_wf : DotDims.WF S2048x512 S16x512 S2048x16 [1] [1] [0] [0] [] []
  dot_S2048x16_S1024x16_S2048x1024_1_1_0_0_n_n_wf : DotDims.WF S2048x16 S1024x16 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .bf16 = 32 ∨ (Rect.block (s := S16x4096) S16x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .bf16 = 32 ∨ (Rect.block (s := S4096x16) S1024x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S16384x4096.size a
  hwx0_5 : ∀ i : grid0.Coords, EltTy.bits .f32 = 32 ∨ (Rect.block (s := S16384x4096) S2048x1024.size (cc0_transform_5 i) (hinb0_5 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x512_S16x512_S2048x16_1_1_0_0_n_n : DotDims S2048x512 S16x512 S2048x16 where
  lhsContracting := [1]
  rhsContracting := [1]
  lhsNonContracting := [0]
  rhsNonContracting := [0]
  lhsBatch := []
  rhsBatch := []
  wf := dot_S2048x512_S16x512_S2048x16_1_1_0_0_n_n_wf
def dot_S2048x16_S1024x16_S2048x1024_1_1_0_0_n_n : DotDims S2048x16 S1024x16 S2048x1024 where
  lhsContracting := [1]
  rhsContracting := [1]
  lhsNonContracting := [0]
  rhsNonContracting := [0]
  lhsBatch := []
  rhsBatch := []
  wf := dot_S2048x16_S1024x16_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
/-
  What one run of the kernel body leaves behind, as values.

  The body keeps two running totals between grid points: `acc`, a 2048 × 1024 tile of the dense product, and `xr`, a
  2048 × 16 tile of the low-rank down-projection. At every point it adds to `acc` the product of the point's block of
  activations with its block of dense weights, and to `xr` the product of the same activations with its block of the
  down-projection. At the first point along the contraction axis both totals are first reset to zero; at the last
  point the output tile is formed from the finished totals, the bias row and the up-projection block.

  Each statement below says that what the body leaves in a buffer is the corresponding arithmetic term of the blocks
  it loaded (and, away from the first point, of the totals the previous point left). They hold for every reading of
  the float operations.
-/
import proofs.«167169_j40355512714072_2_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.ShloMosaic.Tactic Idealize.SL.Sem Cert.KernelIdeal Cert.KernelIdeal.Gen

variable {F : FTy → Type} [FloatOps F]

/-- The zero offsets of a store or a load that covers a whole buffer. -/
theorem hz : (![0, 0] : Fin 2 → Nat) = fun _ => 0 := funext fun a => by fin_cases a <;> rfl

/-- Away from the first and last contraction steps: the dense total becomes the old total plus this block's product. -/
theorem acc_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S16x512 .bf16) (harg6 : arg6.IsWhole) (arg7 : Memref sig .tc .vmem S1024x16 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : ¬cond0_1 i) (x0 : Vec F S2048x512 .bf16) (x1 : Vec F S1024x512 .bf16) (x2 : Vec F S1x1024 .f32) (x3 : Vec F S16x512 .bf16) (x4 : Vec F S1024x16 .bf16) (xs0 : Vec F S2048x1024 .f32) (xs1 : Vec F S2048x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S2048x512) hz, View.ld_unit_zero (S := S1024x512) hz, View.ld_unit_zero (S := S2048x1024) hz, View.ld_unit_zero (S := S16x512) hz, View.ld_unit_zero (S := S2048x16) hz, View.ld_unit_zero (S := S1024x16) hz, View.ld_unit_zero (S := S1x1024) hz]

/-- Away from the first and last contraction steps: the low-rank total becomes the old total plus this block's product. -/
theorem xr_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S16x512 .bf16) (harg6 : arg6.IsWhole) (arg7 : Memref sig .tc .vmem S1024x16 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : ¬cond0_1 i) (x0 : Vec F S2048x512 .bf16) (x1 : Vec F S1024x512 .bf16) (x2 : Vec F S1x1024 .f32) (x3 : Vec F S16x512 .bf16) (x4 : Vec F S1024x16 .bf16) (xs0 : Vec F S2048x1024 .f32) (xs1 : Vec F S2048x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S2048x512) hz, View.ld_unit_zero (S := S1024x512) hz, View.ld_unit_zero (S := S2048x1024) hz, View.ld_unit_zero (S := S16x512) hz, View.ld_unit_zero (S := S2048x16) hz, View.ld_unit_zero (S := S1024x16) hz, View.ld_unit_zero (S := S1x1024) hz]

/-- At the last contraction step the dense total is updated as at any other step. -/
theorem acc_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S16x512 .bf16) (harg6 : arg6.IsWhole) (arg7 : Memref sig .tc .vmem S1024x16 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x512 .bf16) (x1 : Vec F S1024x512 .bf16) (x2 : Vec F S1x1024 .f32) (x3 : Vec F S16x512 .bf16) (x4 : Vec F S1024x16 .bf16) (xs0 : Vec F S2048x1024 .f32) (xs1 : Vec F S2048x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x512) hz, View.ld_unit_zero (S := S1024x512) hz, View.ld_unit_zero (S := S2048x1024) hz, View.ld_unit_zero (S := S16x512) hz, View.ld_unit_zero (S := S2048x16) hz, View.ld_unit_zero (S := S1024x16) hz, View.ld_unit_zero (S := S1x1024) hz]

/-- At the last contraction step the low-rank total is updated as at any other step. -/
theorem xr_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S16x512 .bf16) (harg6 : arg6.IsWhole) (arg7 : Memref sig .tc .vmem S1024x16 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x512 .bf16) (x1 : Vec F S1024x512 .bf16) (x2 : Vec F S1x1024 .f32) (x3 : Vec F S16x512 .bf16) (x4 : Vec F S1024x16 .bf16) (xs0 : Vec F S2048x1024 .f32) (xs1 : Vec F S2048x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x512) hz, View.ld_unit_zero (S := S1024x512) hz, View.ld_unit_zero (S := S2048x1024) hz, View.ld_unit_zero (S := S16x512) hz, View.ld_unit_zero (S := S2048x16) hz, View.ld_unit_zero (S := S1024x16) hz, View.ld_unit_zero (S := S1x1024) hz]

/-- At the last contraction step the output tile is the finished dense total plus the bias row, plus the finished
    low-rank total times the up-projection block, scaled: both totals are read back AFTER this step's update. -/
theorem out_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S16x512 .bf16) (harg6 : arg6.IsWhole) (arg7 : Memref sig .tc .vmem S1024x16 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x512 .bf16) (x1 : Vec F S1024x512 .bf16) (x2 : Vec F S1x1024 .f32) (x3 : Vec F S16x512 .bf16) (x4 : Vec F S1024x16 .bf16) (xs0 : Vec F S2048x1024 .f32) (xs1 : Vec F S2048x16 .f32) :
    out0_C_5 c i arg3 harg3 arg4 harg4 arg5 harg5 arg6 harg6 arg7 harg7 arg8 harg8 arg9 harg9 arg10 harg10 hc0 hc1 x0 x1 x2 x3 x4 xs0 xs1 = k0_pay6 x4 (k0_pay5 x0 x3 xs1) (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz, View.readCov_unit_zero (S := S2048x16) _ hz, View.readCov_unit_zero (S := S2048x1024) _ hz]
  simp only [View.readAt_eq_ld, harg3.read_unread, harg4.read_unread, harg5.read_unread, harg6.read_unread, harg7.read_unread, harg9.read_unread, harg10.read_unread, View.ld_unit_zero (S := S2048x512) hz, View.ld_unit_zero (S := S1024x512) hz, View.ld_unit_zero (S := S2048x1024) hz, View.ld_unit_zero (S := S16x512) hz, View.ld_unit_zero (S := S2048x16) hz, View.ld_unit_zero (S := S1024x16) hz, View.ld_unit_zero (S := S1x1024) hz]

/-- At the first contraction step the dense total is reset to the zero tile and then updated: zero plus the product. -/
theorem acc_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S16x512 .bf16) (harg6 : arg6.IsWhole) (arg7 : Memref sig .tc .vmem S1024x16 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0_0 i) (hc1 : ¬cond0_1 i) (x0 : Vec F S2048x512 .bf16) (x1 : Vec F S1024x512 .bf16) (x2 : Vec F S1x1024 .f32) (x3 : Vec F S16x512 .bf16) (x4 : Vec F S1024x16 .bf16) :
    sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread, harg9.read_unread, harg10.read_unread, View.ld_unit_zero (S := S2048x512) hz, View.ld_unit_zero (S := S1024x512) hz, View.ld_unit_zero (S := S2048x1024) hz, View.ld_unit_zero (S := S16x512) hz, View.ld_unit_zero (S := S2048x16) hz, View.ld_unit_zero (S := S1024x16) hz, View.ld_unit_zero (S := S1x1024) hz]

/-- At the first contraction step the low-rank total is reset to the zero tile and then updated. -/
theorem xr_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S16x512 .bf16) (harg6 : arg6.IsWhole) (arg7 : Memref sig .tc .vmem S1024x16 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0_0 i) (hc1 : ¬cond0_1 i) (x0 : Vec F S2048x512 .bf16) (x1 : Vec F S1024x512 .bf16) (x2 : Vec F S1x1024 .f32) (x3 : Vec F S16x512 .bf16) (x4 : Vec F S1024x16 .bf16) :
    sout0_A_1 c i arg3 harg3 arg4 harg4 arg5 harg5 arg6 harg6 arg7 harg7 arg8 harg8 arg9 harg9 arg10 harg10 hc0 hc1 x0 x1 x2 x3 x4 = k0_pay5 x0 x3 k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x16) hz, View.readCov_unit_zero (S := S2048x16) _ hz]
  simp only [View.readAt_eq_ld, harg3.read_unread, harg4.read_unread, harg5.read_unread, harg6.read_unread, harg7.read_unread, harg9.read_unread, harg10.read_unread, View.ld_unit_zero (S := S2048x512) hz, View.ld_unit_zero (S := S1024x512) hz, View.ld_unit_zero (S := S2048x1024) hz, View.ld_unit_zero (S := S16x512) hz, View.ld_unit_zero (S := S2048x16) hz, View.ld_unit_zero (S := S1024x16) hz, View.ld_unit_zero (S := S1x1024) hz]

end Cert.KernelIdeal.Body

end
-- ==== Proof.Payload.lean ====
/-
  The body's arithmetic read entry by entry over the extended reals.

  At the exact instance a change of float format is the identity and a matrix product into a zero accumulator is the
  plain sum of products over the contracted axis. Every product in the body contracts the LAST axis of both operands
  (rows against rows), so its entry `(p, q)` is `∑ₖ l (p, k) · r (q, k)`. With that, each running total's update is
  "old entry plus a 512-term partial dot product", and the output tile's entry is
  `(dense total + bias) + (∑ over the 16 ranks of low-rank total × up-projection) × 2`.
-/
import proofs.«167169_j40355512714072_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

theorem dense_l0 (j : S2048x1024.Idx) (q : dot_S2048x512_S1024x512_S2048x1024_1_1_0_0_n_n.contr.Idx) : (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem dense_l1 (j : S2048x1024.Idx) (q : dot_S2048x512_S1024x512_S2048x1024_1_1_0_0_n_n.contr.Idx) : (dot_S2048x512_S1024x512_S2048x1024_1_1_0_0_n_n.lhsIdx j q 1).val = (q ⟨0, by decide⟩).val :=
  dot_S2048x512_S1024x512_S2048x1024_1_1_0_0_n_n.lhsIdx_val_of_single rfl j q
theorem dense_r0 (j : S2048x1024.Idx) (q : dot_S2048x512_S1024x512_S2048x1024_1_1_0_0_n_n.contr.Idx) : (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem dense_r1 (j : S2048x1024.Idx) (q : dot_S2048x512_S1024x512_S2048x1024_1_1_0_0_n_n.contr.Idx) : (dot_S2048x512_S1024x512_S2048x1024_1_1_0_0_n_n.rhsIdx j q 1).val = (q ⟨0, by decide⟩).val :=
  dot_S2048x512_S1024x512_S2048x1024_1_1_0_0_n_n.rhsIdx_val_of_single rfl j q

theorem down_l0 (j : S2048x16.Idx) (q : dot_S2048x512_S16x512_S2048x16_1_1_0_0_n_n.contr.Idx) : (dot_S2048x512_S16x512_S2048x16_1_1_0_0_n_n.lhsIdx j q 0).val = (j 0).val := by
  unfold DotDims.lhsIdx
  rw [dif_neg (show ¬(0 : Fin S2048x512.rank) ∈ dot_S2048x512_S16x512_S2048x16_1_1_0_0_n_n.lhsBatch by decide), dif_pos (show (0 : Fin S2048x512.rank) ∈ dot_S2048x512_S16x512_S2048x16_1_1_0_0_n_n.lhsNonContracting by decide)]
  rfl
theorem down_l1 (j : S2048x16.Idx) (q : dot_S2048x512_S16x512_S2048x16_1_1_0_0_n_n.contr.Idx) : (dot_S2048x512_S16x512_S2048x16_1_1_0_0_n_n.lhsIdx j q 1).val = (q ⟨0, by decide⟩).val :=
  dot_S2048x512_S16x512_S2048x16_1_1_0_0_n_n.lhsIdx_val_of_single rfl j q
theorem down_r0 (j : S2048x16.Idx) (q : dot_S2048x512_S16x512_S2048x16_1_1_0_0_n_n.contr.Idx) : (dot_S2048x512_S16x512_S2048x16_1_1_0_0_n_n.rhsIdx j q 0).val = (j 1).val := by
  unfold DotDims.rhsIdx
  rw [dif_neg (show ¬(0 : Fin S16x512.rank) ∈ dot_S2048x512_S16x512_S2048x16_1_1_0_0_n_n.rhsBatch by decide), dif_pos (show (0 : Fin S16x512.rank) ∈ dot_S2048x512_S16x512_S2048x16_1_1_0_0_n_n.rhsNonContracting by decide)]
  rfl
theorem down_r1 (j : S2048x16.Idx) (q : dot_S2048x512_S16x512_S2048x16_1_1_0_0_n_n.contr.Idx) : (dot_S2048x512_S16x512_S2048x16_1_1_0_0_n_n.rhsIdx j q 1).val = (q ⟨0, by decide⟩).val :=
  dot_S2048x512_S16x512_S2048x16_1_1_0_0_n_n.rhsIdx_val_of_single rfl j q

theorem up_l0 (j : S2048x1024.Idx) (q : dot_S2048x16_S1024x16_S2048x1024_1_1_0_0_n_n.contr.Idx) : (dot_S2048x16_S1024x16_S2048x1024_1_1_0_0_n_n.lhsIdx j q 0).val = (j 0).val := by
  unfold DotDims.lhsIdx
  rw [dif_neg (show ¬(0 : Fin S2048x16.rank) ∈ dot_S2048x16_S1024x16_S2048x1024_1_1_0_0_n_n.lhsBatch by decide), dif_pos (show (0 : Fin S2048x16.rank) ∈ dot_S2048x16_S1024x16_S2048x1024_1_1_0_0_n_n.lhsNonContracting by decide)]
  rfl
theorem up_l1 (j : S2048x1024.Idx) (q : dot_S2048x16_S1024x16_S2048x1024_1_1_0_0_n_n.contr.Idx) : (dot_S2048x16_S1024x16_S2048x1024_1_1_0_0_n_n.lhsIdx j q 1).val = (q ⟨0, by decide⟩).val :=
  dot_S2048x16_S1024x16_S2048x1024_1_1_0_0_n_n.lhsIdx_val_of_single rfl j q
theorem up_r0 (j : S2048x1024.Idx) (q : dot_S2048x16_S1024x16_S2048x1024_1_1_0_0_n_n.contr.Idx) : (dot_S2048x16_S1024x16_S2048x1024_1_1_0_0_n_n.rhsIdx j q 0).val = (j 1).val := by
  unfold DotDims.rhsIdx
  rw [dif_neg (show ¬(0 : Fin S1024x16.rank) ∈ dot_S2048x16_S1024x16_S2048x1024_1_1_0_0_n_n.rhsBatch by decide), dif_pos (show (0 : Fin S1024x16.rank) ∈ dot_S2048x16_S1024x16_S2048x1024_1_1_0_0_n_n.rhsNonContracting by decide)]
  rfl
theorem up_r1 (j : S2048x1024.Idx) (q : dot_S2048x16_S1024x16_S2048x1024_1_1_0_0_n_n.contr.Idx) : (dot_S2048x16_S1024x16_S2048x1024_1_1_0_0_n_n.rhsIdx j q 1).val = (q ⟨0, by decide⟩).val :=
  dot_S2048x16_S1024x16_S2048x1024_1_1_0_0_n_n.rhsIdx_val_of_single rfl j q

/-- The product into a zero accumulator, entry `(p, q)`: the sum over the 512 contracted columns of the two rows' products. -/
theorem dense_apply (l : FVec Ideal S2048x512 .bf16) (r : FVec Ideal S1024x512 .bf16) (p : Fin 2048) (q : Fin 1024) :
    matmul dot_S2048x512_S1024x512_S2048x1024_1_1_0_0_n_n none l r (constant (F := Ideal) S2048x1024 .f32 0x00000000#32) (ix2 p q)
      = ∑ k : Fin 512, l (ix2 p k) * r (ix2 q k) := by
  simp only [matmul]
  rw [Ideal.matmul_constant_zero_apply, ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 p q) ((ValueIdx.contrEquiv1 dot_S2048x512_S1024x512_S2048x1024_1_1_0_0_n_n 512 rfl rfl).symm k) = ix2 p k := funext fun a => Fin.ext (by
    match a with
    | ⟨0, _⟩ => exact dense_l0 _ _
    | ⟨1, _⟩ => exact (dense_l1 _ _).trans hk)
  have er : dot_S2048x512_S1024x512_S2048x1024_1_1_0_0_n_n.rhsIdx (ix2 p q) ((ValueIdx.contrEquiv1 dot_S2048x512_S1024x512_S2048x1024_1_1_0_0_n_n 512 rfl rfl).symm k) = ix2 q k := funext fun a => Fin.ext (by
    match a with
    | ⟨0, _⟩ => exact dense_r0 _ _
    | ⟨1, _⟩ => exact (dense_r1 _ _).trans hk)
  rw [el, er]

/-- The product into a zero accumulator, entry `(p, q)`: the sum over the 512 contracted columns of the two rows' products. -/
theorem down_apply (l : FVec Ideal S2048x512 .bf16) (r : FVec Ideal S16x512 .bf16) (p : Fin 2048) (q : Fin 16) :
    matmul dot_S2048x512_S16x512_S2048x16_1_1_0_0_n_n none l r (constant (F := Ideal) S2048x16 .f32 0x00000000#32) (ix2 p q)
      = ∑ k : Fin 512, l (ix2 p k) * r (ix2 q k) := by
  simp only [matmul]
  rw [Ideal.matmul_constant_zero_apply, ← Equiv.sum_comp (ValueIdx.contrEquiv1 dot_S2048x512_S16x512_S2048x16_1_1_0_0_n_n 512 rfl rfl).symm]
  refine Finset.sum_congr rfl fun k _ => ?_
  have hk := ValueIdx.contrEquiv1_symm_val dot_S2048x512_S16x512_S2048x16_1_1_0_0_n_n 512 rfl rfl k
  have el : dot_S2048x512_S16x512_S2048x16_1_1_0_0_n_n.lhsIdx (ix2 p q) ((ValueIdx.contrEquiv1 dot_S2048x512_S16x512_S2048x16_1_1_0_0_n_n 512 rfl rfl).symm k) = ix2 p k := funext fun a => Fin.ext (by
    match a with
    | ⟨0, _⟩ => exact down_l0 _ _
    | ⟨1, _⟩ => exact (down_l1 _ _).trans hk)
  have er : dot_S2048x512_S16x512_S2048x16_1_1_0_0_n_n.rhsIdx (ix2 p q) ((ValueIdx.contrEquiv1 dot_S2048x512_S16x512_S2048x16_1_1_0_0_n_n 512 rfl rfl).symm k) = ix2 q k := funext fun a => Fin.ext (by
    match a with
    | ⟨0, _⟩ => exact down_r0 _ _
    | ⟨1, _⟩ => exact (down_r1 _ _).trans hk)
  rw [el, er]

/-- The product into a zero accumulator, entry `(p, q)`: the sum over the 16 contracted columns of the two rows' products. -/
theorem up_apply (l : FVec Ideal S2048x16 .bf16) (r : FVec Ideal S1024x16 .bf16) (p : Fin 2048) (q : Fin 1024) :
    matmul dot_S2048x16_S1024x16_S2048x1024_1_1_0_0_n_n none l r (constant (F := Ideal) S2048x1024 .f32 0x00000000#32) (ix2 p q)
      = ∑ k : Fin 16, l (ix2 p k) * r (ix2 q k) := by
  simp only [matmul]
  rw [Ideal.matmul_constant_zero_apply, ← Equiv.sum_comp (ValueIdx.contrEquiv1 dot_S2048x16_S1024x16_S2048x1024_1_1_0_0_n_n 16 rfl rfl).symm]
  refine Finset.sum_congr rfl fun k _ => ?_
  have hk := ValueIdx.contrEquiv1_symm_val dot_S2048x16_S1024x16_S2048x1024_1_1_0_0_n_n 16 rfl rfl k
  have el : dot_S2048x16_S1024x16_S2048x1024_1_1_0_0_n_n.lhsIdx (ix2 p q) ((ValueIdx.contrEquiv1 dot_S2048x16_S1024x16_S2048x1024_1_1_0_0_n_n 16 rfl rfl).symm k) = ix2 p k := funext fun a => Fin.ext (by
    match a with
    | ⟨0, _⟩ => exact up_l0 _ _
    | ⟨1, _⟩ => exact (up_l1 _ _).trans hk)
  have er : dot_S2048x16_S1024x16_S2048x1024_1_1_0_0_n_n.rhsIdx (ix2 p q) ((ValueIdx.contrEquiv1 dot_S2048x16_S1024x16_S2048x1024_1_1_0_0_n_n 16 rfl rfl).symm k) = ix2 q k := funext fun a => Fin.ext (by
    match a with
    | ⟨0, _⟩ => exact up_r0 _ _
    | ⟨1, _⟩ => exact (up_r1 _ _).trans hk)
  rw [el, er]

/-- The reset tiles are zero everywhere. -/
theorem zeroAcc_apply (y : S2048x1024.Idx) : k0_pay1 (F := Ideal) y = 0 := by
  unfold k0_pay1
  rw [shapeCast_self]
  exact Ideal.ofBits_zero_f32
theorem zeroXr_apply (y : S2048x16.Idx) : k0_pay2 (F := Ideal) y = 0 := by
  unfold k0_pay2
  rw [shapeCast_self]
  exact Ideal.ofBits_zero_f32

/-- The dense update, entry `(p, q)`: the old total there plus the 512-term partial dot product of activation row `p`
    with weight row `q`. -/
theorem accStep_apply (x0 : FVec Ideal S2048x512 .bf16) (x1 : FVec Ideal S1024x512 .bf16) (xs0 : FVec Ideal S2048x1024 .f32)
    (p : Fin 2048) (q : Fin 1024) :
    k0_pay4 x0 x1 xs0 (ix2 p q) = xs0 (ix2 p q) + ∑ k : Fin 512, x0 (ix2 p k) * x1 (ix2 q k) := by
  unfold k0_pay4 k0_pay3
  simp only [shapeCast_self]
  rw [addf_apply, dense_apply]

/-- The low-rank update, entry `(p, r)`. -/
theorem xrStep_apply (x0 : FVec Ideal S2048x512 .bf16) (x3 : FVec Ideal S16x512 .bf16) (xs1 : FVec Ideal S2048x16 .f32)
    (p : Fin 2048) (r : Fin 16) :
    k0_pay5 x0 x3 xs1 (ix2 p r) = xs1 (ix2 p r) + ∑ k : Fin 512, x0 (ix2 p k) * x3 (ix2 r k) := by
  unfold k0_pay5 k0_pay3
  simp only [shapeCast_self]
  rw [addf_apply, down_apply]

/-- The output tile, entry `(p, q)`: (dense total + bias) + (∑ over the 16 ranks of low-rank total × up-projection) × 2. -/
theorem outTile_apply (x4 : FVec Ideal S1024x16 .bf16) (xr : FVec Ideal S2048x16 .f32) (acc : FVec Ideal S2048x1024 .f32)
    (x2 : FVec Ideal S1x1024 .f32) (p : Fin 2048) (q : Fin 1024) :
    k0_pay6 x4 xr acc x2 (ix2 p q)
      = (acc (ix2 p q) + x2 (ix2 (0 : Fin 1) q)) + (∑ r : Fin 16, xr (ix2 p r) * x4 (ix2 q r)) * Ideal.ofBits .f32 0x40000000#32 := by
  unfold k0_pay6
  simp only [shapeCast_self]
  rw [addf_apply, addf_apply, mulf_apply, up_apply, broadcastTo_1b_ab_apply]
  rfl

end Cert.KernelIdeal.Body

end
-- ==== Proof.SumBlocks.lean ====
/-
  A sum over a range of length `nb * bs` is the sum, over the `nb` consecutive blocks of length `bs`, of each
  block's sum. It holds in every commutative additive monoid, in particular in the extended reals, where no
  finiteness of the summands is needed: only associativity and commutativity of `+` are used.
-/
import Mathlib.Algebra.BigOperators.Fin
import Mathlib.Algebra.BigOperators.Intervals

namespace Cert.Blocked

open Finset

/-- Over `ℕ`: the sum over `range (nb * bs)` is the iterated sum over `nb` blocks of `bs` consecutive indices. -/
theorem sum_range_blocks {M : Type*} [AddCommMonoid M] (nb bs : ℕ) (f : ℕ → M) :
    ∑ i ∈ range (nb * bs), f i = ∑ kb ∈ range nb, ∑ kk ∈ range bs, f (kb * bs + kk) := by
  induction nb with
  | zero => simp
  | succ n ih =>
    rw [Nat.succ_mul, sum_range_add, ih, sum_range_succ]

/-- The same over `Fin`: a sum over `Fin (nb * bs)` is the sum over `Fin nb` of the block sums over `Fin bs`. -/
theorem sum_fin_blocks {M : Type*} [AddCommMonoid M] (nb bs : ℕ) (f : ℕ → M) :
    ∑ kb : Fin nb, ∑ kk : Fin bs, f (kb.val * bs + kk.val) = ∑ i : Fin (nb * bs), f i.val := by
  rw [Fin.sum_univ_eq_sum_range (fun i => f i) (nb * bs), sum_range_blocks,
    Fin.sum_univ_eq_sum_range (fun kb => ∑ kk : Fin bs, f (kb * bs + kk.val)) nb]
  refine sum_congr rfl fun kb _ => ?_
  rw [Fin.sum_univ_eq_sum_range (fun kk => f (kb * bs + kk)) bs]

end Cert.Blocked
-- ==== Proof.Spec.lean ====
/-
  The function both programs compute, and the one law that joins them.

  For arrays read at natural-number coordinates — `X` (the activations, one row per token), `W` (the dense weight,
  one row per output feature), `A` (the low-rank down-projection, one row per rank), `Bm` (the up-projection, one row
  per output feature), a bias `b` and a scale `c` — the entry at row `r`, column `s` is

      (∑ₖ X r k · W s k  +  b s)  +  (∑_q (∑ₖ X r k · A q k) · Bm s q) · c .

  The kernel forms each inner sum over the 4096 columns as eight partial sums over consecutive blocks of 512 columns,
  added to a running total that starts at zero. Over the extended reals that running total after all eight blocks IS
  the sum over the 4096 columns: only associativity and commutativity of `+` are used, so no finiteness of the entries
  is needed.
-/
import Idealize.ShloMosaic.PureOps.Ideal
import Idealize.ShloMosaic.Lib.ValueIdx
import proofs.«167169_j40355512714072_2_alg».proof.Proof.SumBlocks

noncomputable section

namespace Cert.LowRank

open Idealize.ShloMosaic Idealize.ShloMosaic.ValueIdx Finset

/-- A rank-2 array read at natural-number coordinates: its entry when both coordinates are in range, zero otherwise. -/
def at2 {n0 n1 : ℕ} (f : (⟨2, ![n0, n1]⟩ : Shape).Idx → EReal) (a b : ℕ) : EReal :=
  if h : a < n0 ∧ b < n1 then f (ix2 ⟨a, h.1⟩ ⟨b, h.2⟩) else 0

theorem at2_of_lt {n0 n1 : ℕ} (f : (⟨2, ![n0, n1]⟩ : Shape).Idx → EReal) {a b : ℕ} (ha : a < n0) (hb : b < n1) :
    at2 f a b = f (ix2 ⟨a, ha⟩ ⟨b, hb⟩) := dif_pos ⟨ha, hb⟩

/-- The dot product of row `r` of `X` with row `s` of `Y` restricted to the first `nb` column blocks of width 512,
    block by block. -/
def dotBlocks (X Y : ℕ → ℕ → EReal) (nb r s : ℕ) : EReal :=
  ∑ kb ∈ range nb, ∑ kk : Fin 512, X r (kb * 512 + kk.val) * Y s (kb * 512 + kk.val)

/-- The running total after the first block: zero plus that block's partial sum. -/
theorem dotBlocks_one (X Y : ℕ → ℕ → EReal) (r s : ℕ) :
    0 + ∑ kk : Fin 512, X r (0 * 512 + kk.val) * Y s (0 * 512 + kk.val) = dotBlocks X Y 1 r s := by
  unfold dotBlocks
  rw [zero_add, sum_range_one]

/-- Adding block `nb`'s partial sum to the running total over the first `nb` blocks gives the total over `nb + 1`. -/
theorem dotBlocks_succ (X Y : ℕ → ℕ → EReal) (nb r s : ℕ) :
    dotBlocks X Y nb r s + ∑ kk : Fin 512, X r (nb * 512 + kk.val) * Y s (nb * 512 + kk.val)
      = dotBlocks X Y (nb + 1) r s := by
  unfold dotBlocks
  rw [sum_range_succ]

/-- All eight blocks: the dot product over the 4096 columns. -/
theorem dotBlocks_eight (X Y : ℕ → ℕ → EReal) (r s : ℕ) :
    dotBlocks X Y 8 r s = ∑ k : Fin 4096, X r k.val * Y s k.val := by
  unfold dotBlocks
  rw [← Fin.sum_univ_eq_sum_range (fun kb => ∑ kk : Fin 512, X r (kb * 512 + kk.val) * Y s (kb * 512 + kk.val)) 8]
  exact Cert.Blocked.sum_fin_blocks 8 512 (fun k => X r k * Y s k)

/-- The dense layer with its low-rank correction, entry `(r, s)`, with every inner sum taken block by block. -/
def outBlocks (X W A Bm : ℕ → ℕ → EReal) (b : ℕ → EReal) (c : EReal) (r s : ℕ) : EReal :=
  (dotBlocks X W 8 r s + b s) + (∑ q : Fin 16, dotBlocks X A 8 r q.val * Bm s q.val) * c

/-- The same entry with every inner sum taken over the 4096 columns at once. -/
def out (X W A Bm : ℕ → ℕ → EReal) (b : ℕ → EReal) (c : EReal) (r s : ℕ) : EReal :=
  ((∑ k : Fin 4096, X r k.val * W s k.val) + b s)
    + (∑ q : Fin 16, (∑ k : Fin 4096, X r k.val * A q.val k.val) * Bm s q.val) * c

/-- The two are one function. -/
theorem outBlocks_eq_out (X W A Bm : ℕ → ℕ → EReal) (b : ℕ → EReal) (c : EReal) (r s : ℕ) :
    outBlocks X W A Bm b c r s = out X W A Bm b c r s := by
  unfold outBlocks out
  rw [dotBlocks_eight]
  simp only [dotBlocks_eight]

end Cert.LowRank

end
-- ==== Proof.Blocks.lean ====
/-
  The blocks the body is handed at a grid point, as entries of the arrays.

  The grid is 8 row-tiles × 4 column-tiles × 8 contraction steps, visited row-major, so point `t` is row-tile `t / 32`,
  column-tile `t / 8 % 4`, contraction step `t % 8`. A block's entry `(a, b)` sits in its array at
  (block index × block extent + a, …) on each axis; with the printed index maps decided once over the 256 points,
  every input block at `t` is a rectangle of its array whose corner is read off `t` by division and remainder.
  Arrays are read at natural-number coordinates (zero outside their extents) so that the sums over blocks below are
  sums of ONE function of the column number.
-/
import proofs.«167169_j40355512714072_2_alg».proof.Proof.Gen.KernelIdeal.Frame
import proofs.«167169_j40355512714072_2_alg».proof.Proof.Spec
import Idealize.ShloMosaic.Lib.Pipeline.Value
import Idealize.ShloMosaic.Lib.ValueIdx

noncomputable section

namespace Cert.KernelIdeal.Body

open Idealize.ShloMosaic Idealize.ShloMosaic.TcCoe Idealize.ShloMosaic.ValueIdx Idealize.SL.Sem Cert.KernelIdeal Cert.KernelIdeal.Gen Cert.LowRank

variable (m : (ℓ : Loc nD τ sig) → Buf (Elt Ideal) ℓ)

/-- The arrays as the kernel's region finds them, read at natural-number coordinates: the activations (one row per
    token), the dense weight and the up-projection (one row per output feature), the down-projection (one row per rank)
    and the bias row. -/
def Xn (c : Dev nD) : ℕ → ℕ → EReal := at2 (n0 := 16384) (n1 := 4096) (V m c main_v1)
def Wn (c : Dev nD) : ℕ → ℕ → EReal := at2 (n0 := 4096) (n1 := 4096) (V m c main_v2)
def Bias (c : Dev nD) : ℕ → ℕ → EReal := at2 (n0 := 1) (n1 := 4096) (V m c main_v5)
def An (c : Dev nD) : ℕ → ℕ → EReal := at2 (n0 := 16) (n1 := 4096) (V m c main_v3)
def Bn (c : Dev nD) : ℕ → ℕ → EReal := at2 (n0 := 4096) (n1 := 16) (V m c main_v4)

/-- Point `t` of the 8 × 4 × 8 grid, counted row-major, has row-tile `t / 32`, column-tile `t / 8 % 4` and contraction
    step `t % 8`; each window's block index at `t` is the pair of those its index map selects. Decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = t.val % 8
    ∧ win0_4.index t (0 : Fin 2) = t.val / 8 % 4 ∧ win0_4.index t (1 : Fin 2) = 0
    ∧ win0_5.index t (0 : Fin 2) = t.val / 32 ∧ win0_5.index t (1 : Fin 2) = t.val / 8 % 4 :=
  (by decide +kernel : ∀ t : Fin grid0.N, _)

/-- The activation block at point `t`: rows of row-tile `t / 32`, columns of contraction step `t % 8`. -/
theorem xBlock (c : Dev nD) (t : Fin cfg0.N) (a : Fin 2048) (b : Fin 512) :
    (iblk m c 0 t : Vec Ideal S2048x512 .bf16) (ix2 a b) = Xn m c (t.val / 32 * 2048 + a.val) (t.val % 8 * 512 + b.val) := by
  have hN : t.val < 256 := lt_of_lt_of_eq t.isLt (show cfg0.N = 256 from N_0)
  obtain ⟨e00, e01, e10, e11, e20, e21, e30, e31, e40, e41, e50, e51⟩ := idx_facts t
  unfold Xn
  rw [at2_of_lt _ (by omega) (by omega)]
  unfold iblk
  rw [View.read_apply]
  refine congrArg (V m c main_v1) (funext fun ax => Fin.ext ?_)
  match ax with
  | ⟨0, _⟩ => show win0_0.index t (0 : Fin 2) * 2048 + 1 * a.val = _; rw [e00]; show _ = t.val / 32 * 2048 + a.val; omega
  | ⟨1, _⟩ => show win0_0.index t (1 : Fin 2) * 512 + 1 * b.val = _; rw [e01]; show _ = t.val % 8 * 512 + b.val; omega

/-- The dense-weight block at point `t`: rows of column-tile `t / 8 % 4`, columns of contraction step `t % 8`. -/
theorem wBlock (c : Dev nD) (t : Fin cfg0.N) (a : Fin 1024) (b : Fin 512) :
    (iblk m c 1 t : Vec Ideal S1024x512 .bf16) (ix2 a b) = Wn m c (t.val / 8 % 4 * 1024 + a.val) (t.val % 8 * 512 + b.val) := by
  have hN : t.val < 256 := lt_of_lt_of_eq t.isLt (show cfg0.N = 256 from N_0)
  obtain ⟨e00, e01, e10, e11, e20, e21, e30, e31, e40, e41, e50, e51⟩ := idx_facts t
  unfold Wn
  rw [at2_of_lt _ (by omega) (by omega)]
  unfold iblk
  rw [View.read_apply]
  refine congrArg (V m c main_v2) (funext fun ax => Fin.ext ?_)
  match ax with
  | ⟨0, _⟩ => show win0_1.index t (0 : Fin 2) * 1024 + 1 * a.val = _; rw [e10]; show _ = t.val / 8 % 4 * 1024 + a.val; omega
  | ⟨1, _⟩ => show win0_1.index t (1 : Fin 2) * 512 + 1 * b.val = _; rw [e11]; show _ = t.val % 8 * 512 + b.val; omega

/-- The bias block at point `t`: the one row, columns of column-tile `t / 8 % 4`. -/
theorem biasBlock (c : Dev nD) (t : Fin cfg0.N) (a : Fin 1) (b : Fin 1024) :
    (iblk m c 2 t : Vec Ideal S1x1024 .f32) (ix2 a b) = Bias m c (a.val) (t.val / 8 % 4 * 1024 + b.val) := by
  have hN : t.val < 256 := lt_of_lt_of_eq t.isLt (show cfg0.N = 256 from N_0)
  obtain ⟨e00, e01, e10, e11, e20, e21, e30, e31, e40, e41, e50, e51⟩ := idx_facts t
  unfold Bias
  rw [at2_of_lt _ (by omega) (by omega)]
  unfold iblk
  rw [View.read_apply]
  refine congrArg (V m c main_v5) (funext fun ax => Fin.ext ?_)
  match ax with
  | ⟨0, _⟩ => show win0_2.index t (0 : Fin 2) * 1 + 1 * a.val = _; rw [e20]; show _ = a.val; omega
  | ⟨1, _⟩ => show win0_2.index t (1 : Fin 2) * 1024 + 1 * b.val = _; rw [e21]; show _ = t.val / 8 % 4 * 1024 + b.val; omega

/-- The down-projection block at point `t`: all 16 ranks, columns of contraction step `t % 8`. -/
theorem aBlock (c : Dev nD) (t : Fin cfg0.N) (a : Fin 16) (b : Fin 512) :
    (iblk m c 3 t : Vec Ideal S16x512 .bf16) (ix2 a b) = An m c (a.val) (t.val % 8 * 512 + b.val) := by
  have hN : t.val < 256 := lt_of_lt_of_eq t.isLt (show cfg0.N = 256 from N_0)
  obtain ⟨e00, e01, e10, e11, e20, e21, e30, e31, e40, e41, e50, e51⟩ := idx_facts t
  unfold An
  rw [at2_of_lt _ (by omega) (by omega)]
  unfold iblk
  rw [View.read_apply]
  refine congrArg (V m c main_v3) (funext fun ax => Fin.ext ?_)
  match ax with
  | ⟨0, _⟩ => show win0_3.index t (0 : Fin 2) * 16 + 1 * a.val = _; rw [e30]; show _ = a.val; omega
  | ⟨1, _⟩ => show win0_3.index t (1 : Fin 2) * 512 + 1 * b.val = _; rw [e31]; show _ = t.val % 8 * 512 + b.val; omega

/-- The up-projection block at point `t`: rows of column-tile `t / 8 % 4`, all 16 ranks. -/
theorem bBlock (c : Dev nD) (t : Fin cfg0.N) (a : Fin 1024) (b : Fin 16) :
    (iblk m c 4 t : Vec Ideal S1024x16 .bf16) (ix2 a b) = Bn m c (t.val / 8 % 4 * 1024 + a.val) (b.val) := by
  have hN : t.val < 256 := lt_of_lt_of_eq t.isLt (show cfg0.N = 256 from N_0)
  obtain ⟨e00, e01, e10, e11, e20, e21, e30, e31, e40, e41, e50, e51⟩ := idx_facts t
  unfold Bn
  rw [at2_of_lt _ (by omega) (by omega)]
  unfold iblk
  rw [View.read_apply]
  refine congrArg (V m c main_v4) (funext fun ax => Fin.ext ?_)
  match ax with
  | ⟨0, _⟩ => show win0_4.index t (0 : Fin 2) * 1024 + 1 * a.val = _; rw [e40]; show _ = t.val / 8 % 4 * 1024 + a.val; omega
  | ⟨1, _⟩ => show win0_4.index t (1 : Fin 2) * 16 + 1 * b.val = _; rw [e41]; show _ = b.val; omega

/-- The dense partial dot product the body forms at point `t`, entry `(p, q)` of the tile, over the arrays
    (`x0`, `x1` are the activation and weight blocks at `t`). -/
theorem densePartial (c : Dev nD) (t : Fin cfg0.N) (p : Fin 2048) (q : Fin 1024)
    (x0 : Vec Ideal S2048x512 .bf16) (x1 : Vec Ideal S1024x512 .bf16) (e0 : x0 = iblk m c 0 t) (e1 : x1 = iblk m c 1 t) :
    ∑ k : Fin 512, x0 (ix2 p k) * x1 (ix2 q k)
      = ∑ k : Fin 512, Xn m c (t.val / 32 * 2048 + p.val) (t.val % 8 * 512 + k.val)
          * Wn m c (t.val / 8 % 4 * 1024 + q.val) (t.val % 8 * 512 + k.val) := by
  subst e0 e1
  exact Finset.sum_congr rfl fun k _ => by rw [xBlock m c t p k, wBlock m c t q k]

/-- The low-rank partial dot product at point `t`, entry `(p, r)` (`x3` is the down-projection block at `t`). -/
theorem downPartial (c : Dev nD) (t : Fin cfg0.N) (p : Fin 2048) (r : Fin 16)
    (x0 : Vec Ideal S2048x512 .bf16) (x3 : Vec Ideal S16x512 .bf16) (e0 : x0 = iblk m c 0 t) (e3 : x3 = iblk m c 3 t) :
    ∑ k : Fin 512, x0 (ix2 p k) * x3 (ix2 r k)
      = ∑ k : Fin 512, Xn m c (t.val / 32 * 2048 + p.val) (t.val % 8 * 512 + k.val)
          * An m c r.val (t.val % 8 * 512 + k.val) := by
  subst e0 e3
  exact Finset.sum_congr rfl fun k _ => by rw [xBlock m c t p k, aBlock m c t r k]

end Cert.KernelIdeal.Body

end
-- ==== Proof.Totals.lean ====
/-
  The two running totals after every grid point, and the output tile at a tile's last contraction step.

  Within one output tile the eight contraction steps are consecutive points. The dense total after step `k` is the
  dot product over the first `k + 1` column blocks — zero plus the first block's partial product at step 0, the
  previous total plus the next block's partial product afterwards — and likewise the low-rank total. The induction is
  over the point; the previous point of a step `k > 0` lies in the same tile one step earlier, which is arithmetic on
  the point's number.
-/
import proofs.«167169_j40355512714072_2_alg».proof.Proof.Pieces
import proofs.«167169_j40355512714072_2_alg».proof.Proof.Payload
import proofs.«167169_j40355512714072_2_alg».proof.Proof.Blocks

noncomputable section

namespace Cert.KernelIdeal.Body

open Idealize.ShloMosaic Idealize.ShloMosaic.TcCoe Idealize.ShloMosaic.ValueIdx Idealize.SL.Sem Cert.KernelIdeal Cert.KernelIdeal.Gen Cert.LowRank

variable (m : (ℓ : Loc nD τ sig) → Buf (Elt Ideal) ℓ)

/-- The dense running total after point `n`: entry `(p, q)` of the tile is the dot product of activation row
    `n / 32 · 2048 + p` with weight row `n / 8 % 4 · 1024 + q` over the first `n % 8 + 1` column blocks. -/
def accAt (c : Dev nD) (n : ℕ) : Vec Ideal S2048x1024 .f32 := fun y =>
  dotBlocks (Xn m c) (Wn m c) (n % 8 + 1) (n / 32 * 2048 + (y 0).val) (n / 8 % 4 * 1024 + (y 1).val)

/-- The low-rank running total after point `n`: entry `(p, r)` is the dot product of the same activation row with
    down-projection row `r` over the first `n % 8 + 1` column blocks. -/
def xrAt (c : Dev nD) (n : ℕ) : Vec Ideal S2048x16 .f32 := fun y =>
  dotBlocks (Xn m c) (An m c) (n % 8 + 1) (n / 32 * 2048 + (y 0).val) (y 1).val

/-- One step of the dense total away from the first contraction step: the previous point's total plus this point's
    partial product is this point's total (the previous point is in the same tile, one contraction step earlier). -/
theorem accAt_step (c : Dev nD) (t : Fin cfg0.N) (h0 : ¬t.val % 8 = 0) :
    k0_pay4 (iblk m c 0 t) (iblk m c 1 t) (accAt m c (t.val - 1)) = accAt m c t.val := by
  funext y
  obtain ⟨p, q, rfl⟩ : ∃ (p : Fin 2048) (q : Fin 1024), y = ix2 p q := ⟨y 0, y 1, eq_ix2 y⟩
  refine (accStep_apply (iblk m c 0 t) (iblk m c 1 t) (accAt m c (t.val - 1)) p q).trans ?_
  rw [densePartial m c t p q (iblk m c 0 t) (iblk m c 1 t) rfl rfl]
  show dotBlocks _ _ ((t.val - 1) % 8 + 1) ((t.val - 1) / 32 * 2048 + p.val) ((t.val - 1) / 8 % 4 * 1024 + q.val) + _
    = dotBlocks _ _ (t.val % 8 + 1) (t.val / 32 * 2048 + p.val) (t.val / 8 % 4 * 1024 + q.val)
  rw [show (t.val - 1) % 8 + 1 = t.val % 8 by omega, show (t.val - 1) / 32 = t.val / 32 by omega,
    show (t.val - 1) / 8 % 4 = t.val / 8 % 4 by omega]
  exact dotBlocks_succ _ _ _ _ _

/-- The same step of the low-rank total. -/
theorem xrAt_step (c : Dev nD) (t : Fin cfg0.N) (h0 : ¬t.val % 8 = 0) :
    k0_pay5 (iblk m c 0 t) (iblk m c 3 t) (xrAt m c (t.val - 1)) = xrAt m c t.val := by
  funext y
  obtain ⟨p, r, rfl⟩ : ∃ (p : Fin 2048) (r : Fin 16), y = ix2 p r := ⟨y 0, y 1, eq_ix2 y⟩
  refine (xrStep_apply (iblk m c 0 t) (iblk m c 3 t) (xrAt m c (t.val - 1)) p r).trans ?_
  rw [downPartial m c t p r (iblk m c 0 t) (iblk m c 3 t) rfl rfl]
  show dotBlocks _ _ ((t.val - 1) % 8 + 1) ((t.val - 1) / 32 * 2048 + p.val) r.val + _
    = dotBlocks _ _ (t.val % 8 + 1) (t.val / 32 * 2048 + p.val) r.val
  rw [show (t.val - 1) % 8 + 1 = t.val % 8 by omega, show (t.val - 1) / 32 = t.val / 32 by omega]
  exact dotBlocks_succ _ _ _ _ _

/-- At the first contraction step of a tile the dense total is zero plus the first block's partial product. -/
theorem accAt_first (c : Dev nD) (t : Fin cfg0.N) (h0 : t.val % 8 = 0) :
    k0_pay4 (iblk m c 0 t) (iblk m c 1 t) (k0_pay1 (F := Ideal)) = accAt m c t.val := by
  funext y
  obtain ⟨p, q, rfl⟩ : ∃ (p : Fin 2048) (q : Fin 1024), y = ix2 p q := ⟨y 0, y 1, eq_ix2 y⟩
  refine (accStep_apply (iblk m c 0 t) (iblk m c 1 t) (k0_pay1 (F := Ideal)) p q).trans ?_
  rw [densePartial m c t p q (iblk m c 0 t) (iblk m c 1 t) rfl rfl, zeroAcc_apply]
  show _ = dotBlocks _ _ (t.val % 8 + 1) (t.val / 32 * 2048 + p.val) (t.val / 8 % 4 * 1024 + q.val)
  rw [h0]
  exact dotBlocks_one _ _ _ _

/-- The same for the low-rank total. -/
theorem xrAt_first (c : Dev nD) (t : Fin cfg0.N) (h0 : t.val % 8 = 0) :
    k0_pay5 (iblk m c 0 t) (iblk m c 3 t) (k0_pay2 (F := Ideal)) = xrAt m c t.val := by
  funext y
  obtain ⟨p, r, rfl⟩ : ∃ (p : Fin 2048) (r : Fin 16), y = ix2 p r := ⟨y 0, y 1, eq_ix2 y⟩
  refine (xrStep_apply (iblk m c 0 t) (iblk m c 3 t) (k0_pay2 (F := Ideal)) p r).trans ?_
  rw [downPartial m c t p r (iblk m c 0 t) (iblk m c 3 t) rfl rfl, zeroXr_apply]
  show _ = dotBlocks _ _ (t.val % 8 + 1) (t.val / 32 * 2048 + p.val) r.val
  rw [h0]
  exact dotBlocks_one _ _ _ _

/-- THE RUNNING TOTALS. After every grid point the two scratch tiles hold `accAt` and `xrAt` of that point: by
    induction on the point, each point's case chosen by its contraction step. -/
theorem totals (c : Dev nD) : ∀ (n : ℕ) (h : n < cfg0.N),
    (outsAt0 m c n h).2.1 = accAt m c n ∧ (outsAt0 m c n h).2.2 = xrAt m c n := by
  intro n
  induction n using Nat.strong_induction_on with
  | _ n ih =>
    intro h
    have hN : n < 256 := lt_of_lt_of_eq h (show cfg0.N = 256 from N_0)
    let t : Fin cfg0.N := ⟨n, h⟩
    by_cases h0 : n % 8 = 0
    · have h1 : ¬n % 8 = 7 := by omega
      rw [outsAt0_A m c t h0 h1]
      dsimp only
      exact ⟨(acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)).trans (accAt_first m c t h0),
        (xr_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)).trans (xrAt_first m c t h0)⟩
    · obtain ⟨ihA, ihX⟩ := ih (n - 1) (by omega) (by omega)
      by_cases h1 : n % 8 = 7
      · rw [outsAt0_C m c t h0 h1]
        dsimp only
        refine ⟨(acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _).trans ?_, (xr_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _).trans ?_⟩
        · rw [ihA]; exact accAt_step m c t h0
        · rw [ihX]; exact xrAt_step m c t h0
      · rw [outsAt0_B m c t h0 h1]
        dsimp only
        refine ⟨(acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _).trans ?_, (xr_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _).trans ?_⟩
        · rw [ihA]; exact accAt_step m c t h0
        · rw [ihX]; exact xrAt_step m c t h0

/-- At the last contraction step of a tile the output's staging buffer holds the output tile formed from the two
    FINISHED totals of that point, the bias block and the up-projection block. -/
theorem outTile (c : Dev nD) (t : Fin cfg0.N) (h1 : t.val % 8 = 7) :
    (outsAt0 m c t.val t.isLt).1 = k0_pay6 (iblk m c 4 t) (xrAt m c t.val) (accAt m c t.val) (iblk m c 2 t) := by
  have h0 : ¬t.val % 8 = 0 := by omega
  obtain ⟨eA, eX⟩ := totals m c t.val t.isLt
  rw [← eA, ← eX, outsAt0_C m c t h0 h1]
  dsimp only
  rw [acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _, xr_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _

end Cert.KernelIdeal.Body

end
-- ==== Proof.Result.lean ====
/-
  The array the kernel's region leaves, and the kernel program's run read as a value.

  An output tile is written back exactly once, at the last of its eight contraction steps, and by then its two
  running totals are the dot products over all eight column blocks; the 8 × 4 tiles of 2048 × 1024 entries tile the
  16384 × 4096 array. So after the region the array holds, at `(r, s)`, the dense layer with its low-rank correction
  of the arrays the region found. The one host operation after the region splits the row axis back into
  (batch, token).
-/
import proofs.«167169_j40355512714072_2_alg».proof.Proof.Totals
import Idealize.ShloMosaic.Lib.Pipeline.Value
import Idealize.ShloMosaic.Lib.StableHlo.Run

noncomputable section

namespace Cert.KernelIdeal.Body

open Idealize.ShloMosaic Idealize.ShloMosaic.TcCoe Idealize.ShloMosaic.ValueIdx Idealize.SL.Sem Cert.KernelIdeal Cert.KernelIdeal.Gen Cert.LowRank
open Idealize.ShloMosaic.Pipeline (Dat)

variable (m : (ℓ : Loc nD τ sig) → Buf (Elt Ideal) ℓ) (ρ : Dev nD → PrngReg)

/-- The scale the kernel multiplies the low-rank term by: the literal 2. -/
abbrev two : EReal := Ideal.ofBits .f32 0x40000000#32

/-- THE ARRAY THE REGION LEAVES: entry `(r, s)` is the dense layer with its low-rank correction, every inner sum
    taken block by block, of the arrays the region found. -/
def tiled (c : Dev nD) : Vec Ideal S16384x4096 .f32 := fun y =>
  outBlocks (Xn m c) (Wn m c) (An m c) (Bn m c) (fun s => Bias m c 0 s) two (y 0).val (y 1).val

/-- The same as contents of the region's output array. -/
abbrev result (c : Dev nD) : Buf (Elt Ideal) ((c : Thread nD τ).loc main_v6) := tiled m c

/-- The up-projection sum of the output tile at point `t`, entry `(p, q)`, over the arrays (`x4` is the up-projection
    block at `t`). -/
theorem upSum (c : Dev nD) (t : Fin cfg0.N) (q : Fin 1024) (f : Fin 16 → EReal)
    (x4 : Vec Ideal S1024x16 .bf16) (e4 : x4 = iblk m c 4 t) :
    ∑ r : Fin 16, f r * x4 (ix2 q r) = ∑ r : Fin 16, f r * Bn m c (t.val / 8 % 4 * 1024 + q.val) r.val := by
  subst e4
  exact Finset.sum_congr rfl fun r _ => by rw [bBlock m c t q r]

/-- WHAT A WRITE-BACK WRITES. The output block is written back at a tile's last contraction step only, and what is
    written is that tile of `tiled`: all eight column blocks have been added by then. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have hN : t.val < 256 := lt_of_lt_of_eq t.isLt (show cfg0.N = 256 from N_0)
  obtain ⟨e00, e01, e10, e11, e20, e21, e30, e31, e40, e41, e50, e51⟩ := idx_facts t
  show (cfg0.win 5).cut (grid0.coords t) ((dats m 0 c).after 5 t) = _
  rw [after0_5, outTile m c t h7]
  funext y
  obtain ⟨p, q, rfl⟩ : ∃ (p : Fin 2048) (q : Fin 1024), y = ix2 p q := ⟨y 0, y 1, eq_ix2 y⟩
  show k0_pay6 (iblk m c 4 t) (xrAt m c t.val) (accAt m c t.val) (iblk m c 2 t) (ix2 p q)
    = tiled m c (((cfg0.win 5).blk t).view.emb (ix2 p q))
  refine (outTile_apply (iblk m c 4 t) (xrAt m c t.val) (accAt m c t.val) (iblk m c 2 t) p q).trans ?_
  rw [biasBlock m c t 0 q, upSum m c t q (fun r => xrAt m c t.val (ix2 p r)) (iblk m c 4 t) rfl]
  show (dotBlocks _ _ (t.val % 8 + 1) (t.val / 32 * 2048 + p.val) (t.val / 8 % 4 * 1024 + q.val) + _)
      + (∑ r : Fin 16, dotBlocks _ _ (t.val % 8 + 1) (t.val / 32 * 2048 + p.val) r.val * _) * _
    = outBlocks _ _ _ _ _ _ (win0_5.index t (0 : Fin 2) * 2048 + 1 * p.val) (win0_5.index t (1 : Fin 2) * 1024 + 1 * q.val)
  rw [e50, e51, h7, Nat.one_mul, Nat.one_mul]
  rfl

/-- THE TILES COVER THE ARRAY: entry `(r, s)` lies in the tile written back at the last contraction step of row-tile
    `r / 2048`, column-tile `s / 1024`. -/
theorem cover (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 256 := N_0
  let t : Fin cfg0.N := ⟨(i 0).val / 2048 * 32 + (i 1).val / 1024 * 8 + 7, by rw [hN]; omega⟩
  have ht : t.val = (i 0).val / 2048 * 32 + (i 1).val / 1024 * 8 + 7 := rfl
  obtain ⟨e00, e01, e10, e11, e20, e21, e30, e31, e40, e41, e50, e51⟩ := idx_facts t
  refine ⟨t, (flush0_5 t).mpr (by rw [ht]; omega), ?_⟩
  show i ∈ ((View.whole main_v6).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    rw [e50, ht]; omega
  | ⟨1, _⟩ =>
    show win0_5.index t (1 : Fin 2) * 1024 ≤ (i 1).val ∧ (i 1).val < win0_5.index t (1 : Fin 2) * 1024 + 1024
    rw [e51, ht]; omega

/-- So the region's output array ends holding `tiled`. -/
theorem final (c : Dev nD) : (dats m 0 c).arrAt 5 cfg0.N = result m c :=
  (dats m 0 c).arrAt_eq_of_cover 5 (result m c) (flushed_eq m c) (cover c)

/-- After the region the host only splits the row axis back into (batch, token): the program's result is that
    re-indexing of `tiled`. -/
theorem tail_eq (c : Dev nD) :
    Pipeline.afterTail₀ cfgs (dats m) 0 (V0 m) [hostOps1] c main_v7
      = shapeCast S4x4096x4096 (result m c) shapeCasts_S16384x4096_S4x4096x4096 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = result m c :=
    (Pipeline.withArrays_arr spec0 launch0.win.arr_inj c _ _ 5).trans (final m c)
  rw [e]
  rfl

/-- THE KERNEL PROGRAM'S RUN, READ: every weakly fair execution terminates with the result at the (batch, token)
    re-indexing of `tiled` and the five arguments unchanged. -/
theorem run : θ_run defs (onTc (τ := τ) (main (F := Ideal))) ⟨m, fun _ => 0, ρ⟩ fun r => ∀ c : Dev nD,
      r.2.mem ((c : Thread nD τ).loc main_v7) = shapeCast S4x4096x4096 (result m c) shapeCasts_S16384x4096_S4x4096x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Body

end
-- ==== Proof.Entry.lean ====
/-
  What the kernel's region finds in its arrays, in terms of the program's arguments.

  Before the region the host flattens the activations' (batch, token) axes into one row axis, rounds the four matrices
  to bf16 and gives the bias a leading unit axis. Over the extended reals the rounding is the identity, so each array
  the region reads is an argument up to re-indexing: row `b · 4096 + s` of the activations is token `(b, s)`, and the
  bias row's entry `o` is the bias at `o`.
-/
import proofs.«167169_j40355512714072_2_alg».proof.Proof.Blocks
import Idealize.ShloMosaic.Lib.StableHlo.Run
import Idealize.ShloMosaic.Lib.ValueLayout

noncomputable section

namespace Cert.KernelIdeal.Body

open Idealize.ShloMosaic Idealize.ShloMosaic.TcCoe Idealize.ShloMosaic.ValueIdx Idealize.SL.Sem Cert.KernelIdeal Cert.KernelIdeal.Gen Cert.LowRank

variable (m : (ℓ : Loc nD τ sig) → Buf (Elt Ideal) ℓ)

/-- Before the region the host flattens the activations' two leading axes into one and rounds to bf16; over the
    extended reals the rounding is the identity. -/
theorem V_x (c : Dev nD) : (V m c main_v1 : FVec Ideal S16384x4096 .bf16)
    = truncf (F := Ideal) .bf16 (shapeCast S16384x4096 (m ((c : Thread nD τ).loc main_arg0)) shapeCasts_S4x4096x4096_S16384x4096) bitsLt_bf16_f32 := by
  show StableHlo.after hostOps0 (fun b => m (c, b)) (Proc.devRef .tc main_v1) = _
  after_results <;> rfl

theorem V_w (c : Dev nD) : (V m c main_v2 : FVec Ideal S4096x4096 .bf16) = truncf (F := Ideal) .bf16 (m ((c : Thread nD τ).loc main_arg1)) bitsLt_bf16_f32 := by
  show StableHlo.after hostOps0 (fun b => m (c, b)) (Proc.devRef .tc main_v2) = _
  after_results <;> rfl

theorem V_a (c : Dev nD) : (V m c main_v3 : FVec Ideal S16x4096 .bf16) = truncf (F := Ideal) .bf16 (m ((c : Thread nD τ).loc main_arg3)) bitsLt_bf16_f32 := by
  show StableHlo.after hostOps0 (fun b => m (c, b)) (Proc.devRef .tc main_v3) = _
  after_results <;> rfl

theorem V_b (c : Dev nD) : (V m c main_v4 : FVec Ideal S4096x16 .bf16) = truncf (F := Ideal) .bf16 (m ((c : Thread nD τ).loc main_arg4)) bitsLt_bf16_f32 := by
  show StableHlo.after hostOps0 (fun b => m (c, b)) (Proc.devRef .tc main_v4) = _
  after_results <;> rfl

theorem V_bias (c : Dev nD) : (V m c main_v5 : FVec Ideal S1x4096 .f32) = shapeCast S1x4096 (m ((c : Thread nD τ).loc main_arg2)) shapeCasts_S4096_S1x4096 := by
  show StableHlo.after hostOps0 (fun b => m (c, b)) (Proc.devRef .tc main_v5) = _
  after_results <;> rfl

/-- Row `b · 4096 + s` of the flattened activations is token `(b, s)`. -/
theorem Xn_eq (c : Dev nD) (b : Fin 4) (s : Fin 4096) (k : Fin 4096) :
    Xn m c (b.val * 4096 + s.val) k.val = m ((c : Thread nD τ).loc main_arg0) (ix3 b s k) := by
  unfold Xn
  rw [at2_of_lt _ (by omega) k.isLt, V_x]
  show shapeCast S16384x4096 (m ((c : Thread nD τ).loc main_arg0)) shapeCasts_S4x4096x4096_S16384x4096
      (ix2 ⟨b.val * 4096 + s.val, by omega⟩ ⟨k.val, k.isLt⟩) = _
  refine shapeCast_apply _ _ _ _ ?_
  show (S4x4096x4096.rowMajor (ix3 b s k)).val
    = (S16384x4096.rowMajor (ix2 ⟨b.val * 4096 + s.val, by omega⟩ ⟨k.val, k.isLt⟩)).val
  rw [Shape.rowMajor_val_three, Shape.rowMajor_val_two]
  rfl

theorem Wn_eq (c : Dev nD) (o : Fin 4096) (k : Fin 4096) :
    Wn m c o.val k.val = m ((c : Thread nD τ).loc main_arg1) (ix2 o k) := by
  unfold Wn
  rw [at2_of_lt _ o.isLt k.isLt, V_w]
  rfl

theorem An_eq (c : Dev nD) (q : Fin 16) (k : Fin 4096) :
    An m c q.val k.val = m ((c : Thread nD τ).loc main_arg3) (ix2 q k) := by
  unfold An
  rw [at2_of_lt _ q.isLt k.isLt, V_a]
  rfl

theorem Bn_eq (c : Dev nD) (o : Fin 4096) (q : Fin 16) :
    Bn m c o.val q.val = m ((c : Thread nD τ).loc main_arg4) (ix2 o q) := by
  unfold Bn
  rw [at2_of_lt _ o.isLt q.isLt, V_b]
  rfl

theorem Bias_eq (c : Dev nD) (o : Fin 4096) :
    Bias m c 0 o.val = m ((c : Thread nD τ).loc main_arg2) (ix1 o) := by
  unfold Bias
  rw [at2_of_lt _ (by omega) o.isLt, V_bias]
  exact shapeCast_a_1a_apply _ _ _ _

end Cert.KernelIdeal.Body

end
-- ==== Proof.Join.lean ====
/-
  The bridge: the reference's value and the kernel program's value are the same function of the five arguments.

  Index by index. The reference's last stage at (batch `b`, token `s`, feature `o`) is read off its operations one at
  a time: two nested whole-axis dot products, a bias broadcast along the last axis, a scalar 2 broadcast everywhere.
  The kernel program's result there is its tiled array at row `b · 4096 + s`, column `o` (the final host operation only
  re-indexes), whose inner sums, taken eight blocks at a time, are the whole-axis sums. What remains is that the
  arrays the kernel's region read are the arguments themselves.
-/
import proofs.«167169_j40355512714072_2_alg».proof.Proof.Result
import proofs.«167169_j40355512714072_2_alg».proof.Proof.Entry
import proofs.«167169_j40355512714072_2_alg».proof.Proof.Gen.ReferenceIdeal.Read

noncomputable section

namespace Cert.Bridge

open Idealize.ShloMosaic Idealize.ShloMosaic.TcCoe Idealize.ShloMosaic.ValueIdx Idealize.SL.Sem Cert.KernelIdeal Cert.KernelIdeal.Gen Cert.KernelIdeal.Body Cert.LowRank
open Cert.ReferenceIdeal.Read (val_main_v0_apply val_main_v1_apply val_main_v2_apply val_main_v3_apply val_main_v4_apply val_main_v5_apply val_main_v6_apply val_main_v7_apply val_main_v8_apply val_main_cst_apply lidx_main_v0 ridx_main_v0 lidx_main_v4 ridx_main_v4 lidx_main_v5 ridx_main_v5 idx_main_v1 idx_main_v2 idx_main_v6)

variable (m : (ℓ : Loc nD τ sig) → Buf (Elt Ideal) ℓ)

/-- THE TWO PROGRAMS COMPUTE ONE FUNCTION. At batch `b`, token `s`, output feature `o`, the reference's last stage is
    `(∑ₖ x·W + bias) + (∑_q (∑ₖ x·A) · B) · 2` with every sum over its whole axis; the kernel's result there is the entry
    of its tiled array at row `b · 4096 + s`, column `o`, whose block-by-block sums are those whole-axis sums, over
    arrays that are the arguments (flattened, and rounded by the identity). -/
theorem reference_eq (c : Dev nD) :
    Cert.ReferenceIdeal.Read.val_main_v8 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = shapeCast S4x4096x4096 (result m c) shapeCasts_S16384x4096_S4x4096x4096 := by
  funext i
  obtain ⟨b, s, o, rfl⟩ : ∃ (b : Fin 4) (s : Fin 4096) (o : Fin 4096), i = ix3 b s o := ⟨i 0, i 1, i 2, eq_ix3 i⟩
  have hk : shapeCast S4x4096x4096 (result m c) shapeCasts_S16384x4096_S4x4096x4096 (ix3 b s o)
      = out (Xn m c) (Wn m c) (An m c) (Bn m c) (fun s => Bias m c 0 s) two (b.val * 4096 + s.val) o.val := by
    rw [shapeCast_apply (result m c) shapeCasts_S16384x4096_S4x4096x4096 (ix3 b s o) (ix2 ⟨b.val * 4096 + s.val, by omega⟩ o)
      (by
        show (S16384x4096.rowMajor (ix2 ⟨b.val * 4096 + s.val, by omega⟩ o)).val = (S4x4096x4096.rowMajor (ix3 b s o)).val
        rw [Shape.rowMajor_val_two, Shape.rowMajor_val_three]; rfl)]
    exact outBlocks_eq_out _ _ _ _ _ _ _ _
  rw [hk]
  have e_l0 : ∀ k : Fin 4096, lidx_main_v0 (ix3 b s o) k = ix3 b s k := fun k => funext fun a => by
    match a with | ⟨0, _⟩ => rfl | ⟨1, _⟩ => rfl | ⟨2, _⟩ => rfl
  have e_r0 : ∀ k : Fin 4096, ridx_main_v0 (ix3 b s o) k = ix2 o k := fun k => funext fun a => by
    match a with | ⟨0, _⟩ => rfl | ⟨1, _⟩ => rfl
  have e_b : idx_main_v1 (idx_main_v2 (ix3 b s o)) = ix1 o := funext fun a => by
    match a with | ⟨0, _⟩ => rfl
  have e_l5 : ∀ q : Fin 16, lidx_main_v5 (ix3 b s o) q = ix3 b s q := fun q => funext fun a => by
    match a with | ⟨0, _⟩ => rfl | ⟨1, _⟩ => rfl | ⟨2, _⟩ => rfl
  have e_r5 : ∀ q : Fin 16, ridx_main_v5 (ix3 b s o) q = ix2 o q := fun q => funext fun a => by
    match a with | ⟨0, _⟩ => rfl | ⟨1, _⟩ => rfl
  have e_l4 : ∀ (q : Fin 16) (k : Fin 4096), lidx_main_v4 (ix3 b s q) k = ix3 b s k := fun q k => funext fun a => by
    match a with | ⟨0, _⟩ => rfl | ⟨1, _⟩ => rfl | ⟨2, _⟩ => rfl
  have e_r4 : ∀ (q : Fin 16) (k : Fin 4096), ridx_main_v4 (ix3 b s q) k = ix2 q k := fun q k => funext fun a => by
    match a with | ⟨0, _⟩ => rfl | ⟨1, _⟩ => rfl
  rw [val_main_v8_apply, val_main_v3_apply, val_main_v7_apply, val_main_v0_apply, val_main_v2_apply, val_main_v1_apply,
    val_main_v5_apply, val_main_v6_apply, val_main_cst_apply]
  simp only [val_main_v4_apply, e_l0, e_r0, e_b, e_l5, e_r5, e_l4, e_r4]
  unfold out
  simp only [Xn_eq m c b s, Wn_eq m c, An_eq m c, Bn_eq m c, Bias_eq m c]
  rfl

end Cert.Bridge

end
-- ==== Proof.lean ====
/-
  A dense linear layer with a low-rank correction, `x ↦ (x · Wᵀ + bias) + ((x · Aᵀ) · Bᵀ) · 2`, as one tiled kernel
  against its whole-array reference, over the extended reals.

  The kernel tiles the 16384 × 4096 output into 8 × 4 tiles and walks each tile's contraction axis in eight blocks of
  512 columns, keeping two running totals (the dense product and the low-rank down-projection) that start at zero;
  at the eighth block it adds the bias row and the up-projected, scaled low-rank term and writes the tile. The
  reference forms every product over its whole contraction axis at once. Over the extended reals a rounding to bf16
  is the identity and a matrix product is the plain sum of products, so the only difference between the two is that
  a sum over 4096 columns is taken as eight consecutive partial sums added to zero — equal in any commutative
  monoid, hence with no use of the finiteness of the inputs.

  The three frame claims are the generated frame runs (the reference's is its generated run with the result
  dropped); the idealization rewrote nothing, so `preserves` is `True`; `algebraic` puts the kernel program's run,
  read as a value, beside the reference's run and joins the two values index by index.
-/
import proofs.«167169_j40355512714072_2_alg».proof.Defs
import proofs.«167169_j40355512714072_2_alg».proof.Proof.Gen.Kernel
import proofs.«167169_j40355512714072_2_alg».proof.Proof.Gen.Kernel.Skeleton
import proofs.«167169_j40355512714072_2_alg».proof.Proof.Gen.Kernel.Launch
import proofs.«167169_j40355512714072_2_alg».proof.Proof.Gen.Kernel.Points
import proofs.«167169_j40355512714072_2_alg».proof.Proof.Gen.Kernel.Frame
import proofs.«167169_j40355512714072_2_alg».proof.Proof.Gen.KernelIdeal
import proofs.«167169_j40355512714072_2_alg».proof.Proof.Gen.KernelIdeal.Skeleton
import proofs.«167169_j40355512714072_2_alg».proof.Proof.Gen.KernelIdeal.Launch
import proofs.«167169_j40355512714072_2_alg».proof.Proof.Gen.KernelIdeal.Points
import proofs.«167169_j40355512714072_2_alg».proof.Proof.Gen.KernelIdeal.Frame
import proofs.«167169_j40355512714072_2_alg».proof.Proof.Gen.ReferenceIdeal
import proofs.«167169_j40355512714072_2_alg».proof.Proof.Gen.ReferenceIdeal.Run
import proofs.«167169_j40355512714072_2_alg».proof.Proof.Gen.ReferenceIdeal.Read
import proofs.«167169_j40355512714072_2_alg».proof.Proof.Gen.Pre_finite_inputs
import proofs.«167169_j40355512714072_2_alg».proof.Proof.Result
import proofs.«167169_j40355512714072_2_alg».proof.Proof.Join
import Idealize.ShloMosaic.Adequacy
import Idealize.ShloMosaic.Init

noncomputable section

namespace Cert.Proof

open Idealize.ShloMosaic Idealize.SL.Sem

/-- The word-level kernel program terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs run, and both end with the same result: the
    kernel's tiled array re-indexed by (batch, token), which is the reference's last stage of the same arguments. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v8_eq]
  exact Cert.Bridge.reference_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
